-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S8192x4096, .f32⟩
  | .hbm, ⟨4, _⟩ => ⟨S4096x4096, .bf16⟩
  | .hbm, ⟨5, _⟩ => ⟨S1x4096, .f32⟩
  | .hbm, ⟨6, _⟩ => ⟨S8192x4096, .f32⟩
  | .hbm, ⟨7, _⟩ => ⟨S4x2048x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096x4096, .f32⟩
  | .hbm, ⟨4, _⟩ => ⟨S4x2048x4096, .f32⟩
  | .hbm, ⟨5, _⟩ => ⟨S1x1x4096, .f32⟩
  | .hbm, ⟨6, _⟩ => ⟨S4x2048x4096, .f32⟩
  | .hbm, ⟨7, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
import proofs.«142408_j43026982371413_1_alg».proof.Proof.Gen.KernelIdeal.Frame
import Idealize.ShloMosaic.Lib.Pipeline.Value
import Idealize.ShloMosaic.Lib.Tactic

/-!
# What one grid point leaves behind

The body of the kernel runs in one of three ways, according to the position `k` of the point along the
contraction axis of the grid. At `k = 0` it first clears the accumulator and then adds the point's block
product into it; at `0 < k < 7` it only adds; at `k = 7` it adds and then writes the accumulator, scaled
column by column, into the output block. This file reads what each way leaves in the accumulator and in
the output block as the body's own arithmetic terms: `acc + x·wᵀ` for the accumulator (with `acc` the zero
block at `k = 0`) and `(acc + x·wᵀ) · scale` for the output block. Nothing here depends on the numbers
being ideal or machine words.
-/

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- A middle point (`0 < k < 7`): the accumulator `acc` ends as `acc + x·wᵀ` of the point's blocks. -/
theorem acc_middle (c : Dev nD) (i : grid0.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .f32) (x1 : Vec F S1024x512 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg7.read_unread,
    View.ld_unit_zero (S := S1024x512) hz, View.ld_unit_zero (S := S1024x1024) hz]

/-- The first point (`k = 0`): the accumulator is cleared first, so it ends as `0 + x·wᵀ`. -/
theorem acc_first (c : Dev nD) (i : grid0.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .f32) (x1 : Vec F S1024x512 .bf16) (x2 : Vec F S1x1024 .f32) :
    sout0_A_0 c i arg3 harg3 arg4 harg4 arg5 harg5 arg6 harg6 arg7 harg7 hc0 hc1 x0 x1 x2 = k0_pay2 x0 x1 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread,
    View.ld_unit_zero (S := S1024x512) hz]

/-- The last point (`k = 7`): the accumulator ends as `acc + x·wᵀ` as at a middle point. -/
theorem acc_last (c : Dev nD) (i : grid0.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread,
    View.ld_unit_zero (S := S1024x512) hz, View.ld_unit_zero (S := S1024x1024) hz]

/-- The last point also writes the output block: the new accumulator times the scale row. -/
theorem out_last (c : Dev nD) (i : grid0.Coords) (arg3 : Memref sig .tc .vmem S1024x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .f32) (x1 : Vec F S1024x512 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg7.read_unread,
    View.ld_unit_zero (S := S1024x512) hz, View.ld_unit_zero (S := S1024x1024) hz, View.ld_unit_zero (S := S1x1024) hz]

end Cert.KernelIdeal.Pieces

end
-- ==== Proof.LibDenseRows.lean ====
import Idealize.ShloMosaic.PureOps.Ideal
import Idealize.ShloMosaic.PureOps.Ideal.Laws
import Idealize.ShloMosaic.Lib.ValueIdx

/-!
# A matrix times a transposed matrix, row by row, over the extended reals

`dense X W` is the product `X · Wᵀ` of an `M × K` array with an `N × K` array: entry `(a, n)` is
`∑ k, X (a, k) * W (n, k)`. `relu` is the entrywise maximum with zero. Both act on each row of `X`
by itself: two arrays (of any numbers of rows) that agree on one row of each give results that
agree on that row (`dense_row`, `relu_row`). No law of the extended reals beyond reading a sum term
by term is used, so nothing here asks the entries to be finite.

The matrix unit's product into a zero accumulator and the host's `dot_general`, both contracting the
last axis of each operand (the dimension numbers `DotDims.transposedRhs`), are `dense` of their
operands at the ideal values (`matmul_zero_eq_dense`, `dotGeneral_eq_dense`); the entrywise maximum
with a splat of a zero pattern is `relu` (`maximumf_zero_eq_relu`).
-/

noncomputable section

namespace Cert.DenseRows

open Idealize.ShloMosaic Idealize.ShloMosaic.ValueIdx

/-- `X · Wᵀ`: entry `(a, n)` is the sum over `k` of `X (a, k) * W (n, k)`. -/
def dense {M K N : ℕ} (X : (⟨2, ![M, K]⟩ : Shape).Idx → EReal) (W : (⟨2, ![N, K]⟩ : Shape).Idx → EReal) :
    (⟨2, ![M, N]⟩ : Shape).Idx → EReal :=
  fun j => ∑ k : Fin K, X (ix2 (j 0) k) * W (ix2 (j 1) k)

/-- The entrywise maximum with zero. -/
def relu {s : Shape} (X : s.Idx → EReal) : s.Idx → EReal := fun j => max (X j) 0

theorem dense_apply {M K N : ℕ} (X : (⟨2, ![M, K]⟩ : Shape).Idx → EReal) (W : (⟨2, ![N, K]⟩ : Shape).Idx → EReal)
    (a : Fin M) (n : Fin N) : dense X W (ix2 a n) = ∑ k : Fin K, X (ix2 a k) * W (ix2 n k) := rfl

theorem relu_apply {s : Shape} (X : s.Idx → EReal) (j : s.Idx) : relu X j = max (X j) 0 := rfl

/-- Row `a` of `X · Wᵀ` is a function of row `a` of `X` alone. -/
theorem dense_row {M M' K N : ℕ} (X : (⟨2, ![M, K]⟩ : Shape).Idx → EReal) (X' : (⟨2, ![M', K]⟩ : Shape).Idx → EReal)
    (W : (⟨2, ![N, K]⟩ : Shape).Idx → EReal) (a : Fin M) (a' : Fin M')
    (h : ∀ k : Fin K, X (ix2 a k) = X' (ix2 a' k)) (n : Fin N) :
    dense X W (ix2 a n) = dense X' W (ix2 a' n) := by
  rw [dense_apply, dense_apply]
  exact Finset.sum_congr rfl fun k _ => by rw [h k]

/-- So is row `a` of the entrywise maximum with zero. -/
theorem relu_row {M M' K : ℕ} (X : (⟨2, ![M, K]⟩ : Shape).Idx → EReal) (X' : (⟨2, ![M', K]⟩ : Shape).Idx → EReal)
    (a : Fin M) (a' : Fin M') (h : ∀ k : Fin K, X (ix2 a k) = X' (ix2 a' k)) (k : Fin K) :
    relu X (ix2 a k) = relu X' (ix2 a' k) := by
  rw [relu_apply, relu_apply, h k]

/-! ## The contraction of the last axis of both operands, as a sum over that axis's coordinate -/

/-- With the dimension numbers `transposedRhs` the left operand's row is the result's row … -/
theorem lhsIdx_transposedRhs_0 {M K N : ℕ} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- … the right operand's row is the result's column … -/
theorem rhsIdx_transposedRhs_0 {M K N : ℕ} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- … and both operands' columns are the contraction coordinate: the left operand is read at (row, `k`) … -/
theorem lhsIdx_transposedRhs {M K N : ℕ} (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  refine Fin.ext ?_
  match a with
  | ⟨0, _⟩ => exact lhsIdx_transposedRhs_0 j _
  | ⟨1, _⟩ => exact ((DotDims.transposedRhs M K N).lhsIdx_val_of_single rfl j _).trans hk

/-- … and the right operand at (column, `k`). -/
theorem rhsIdx_transposedRhs {M K N : ℕ} (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  refine Fin.ext ?_
  match a with
  | ⟨0, _⟩ => exact rhsIdx_transposedRhs_0 j _
  | ⟨1, _⟩ => exact ((DotDims.transposedRhs M K N).rhsIdx_val_of_single rfl j _).trans hk

/-- The textbook contraction with those dimension numbers is `dense`. -/
theorem contraction_transposedRhs {M K N : ℕ} (l : (⟨2, ![M, K]⟩ : Shape).Idx → EReal) (r : (⟨2, ![N, K]⟩ : Shape).Idx → EReal)
    (j : (⟨2, ![M, N]⟩ : Shape).Idx) :
    ∑ q : (DotDims.transposedRhs M K N).contr.Idx,
        l ((DotDims.transposedRhs M K N).lhsIdx j q) * r ((DotDims.transposedRhs M K N).rhsIdx j q) = dense l r j := by
  rw [← Equiv.sum_comp (contrEquiv1 (DotDims.transposedRhs M K N) K rfl rfl).symm]
  exact Finset.sum_congr rfl fun k _ => by rw [lhsIdx_transposedRhs, rhsIdx_transposedRhs]; rfl

/-- The matrix unit's product into the zero splat, contracting the last axis of both operands, is `dense`
    at the ideal values (whatever the operands' formats). `hd` is `rfl` for a printed record with those lists. -/
theorem matmul_zero_eq_dense {M K N : ℕ} {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) :
    matmul d prec l r (constant (F := Ideal) ⟨2, ![M, N]⟩ .f32 0x00000000#32) = dense l r := by
  subst hd
  funext j
  exact (Ideal.matmul_constant_zero_apply _ prec l r j).trans (contraction_transposedRhs l r j)

/-- The host's `dot_general` with the same dimension numbers likewise. -/
theorem dotGeneral_eq_dense {M K N : ℕ} {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) :
    Host.dotGeneral d prec l r = dense l r := by
  subst hd
  funext j
  exact (Ideal.dotGeneral_apply _ prec .single l r j).trans (contraction_transposedRhs l r j)

/-- The entrywise maximum with an array that is zero everywhere is `relu`. -/
theorem maximumf_zero_eq_relu {s : Shape} {φ : FTy} (x z : FVec Ideal s φ) (hz : ∀ j, z j = 0) :
    maximumf x z = relu x := by
  funext j
  show max (x j) (z j) = max (x j) 0
  rw [hz j]

end Cert.DenseRows

end
-- ==== Proof.Payload.lean ====
import proofs.«142408_j43026982371413_1_alg».proof.Proof.Gen.KernelIdeal.Skeleton
import proofs.«142408_j43026982371413_1_alg».proof.Proof.LibDenseRows
import Idealize.ShloMosaic.Lib.Pipeline.Value
import Idealize.ShloMosaic.Lib.ValueIdx
import Idealize.ShloMosaic.PureOps.Ideal.Laws

/-!
# The body's arithmetic over the extended reals

Read with exact numbers, the three terms the body stores are: the zero block; the accumulator plus the
product of the activation block with the transposed weight block, `acc + x·wᵀ`, whose entry `(p, q)` is
`acc (p, q) + ∑ₖ x (p, k) · w (q, k)` (the narrowing of `x` to a shorter format changes nothing when numbers
are exact); and the accumulator times the scale row, whose entry `(p, q)` is `a (p, q) · s (0, q)`.
-/

noncomputable section

open Idealize.ShloMosaic Idealize.ShloMosaic.ValueIdx

namespace Cert.KernelIdeal.Payload

open Cert.KernelIdeal Cert.KernelIdeal.Gen Cert.DenseRows

/-- The block the first point clears the accumulator with is zero everywhere. -/
theorem zero_block (j : S1024x1024.Idx) : k0_pay1 (F := Ideal) j = 0 := by
  unfold k0_pay1
  simp only [shapeCast_self]
  exact Ideal.ofBits_zero_f32

/-- One accumulation step at an entry: the old entry plus the inner product of row `p` of the activation
    block with row `q` of the weight block. -/
theorem add_block (x0 : Vec Ideal S1024x512 .f32) (x1 : Vec Ideal S1024x512 .bf16) (acc : Vec Ideal S1024x1024 .f32)
    (j : S1024x1024.Idx) :
    k0_pay2 x0 x1 acc j = acc j + dense (M := 1024) (K := 512) (N := 1024) x0 x1 j := by
  unfold k0_pay2
  simp only [shapeCast_self]
  show acc j + matmul dot_S1024x512_S1024x512_S1024x1024_1_1_0_0_n_n none x0 x1
      (constant (F := Ideal) S1024x1024 .f32 0x00000000#32) j = _
  exact congrArg (acc j + ·) (congrFun (matmul_zero_eq_dense (M := 1024) (K := 512) (N := 1024)
    dot_S1024x512_S1024x512_S1024x1024_1_1_0_0_n_n rfl none x0 x1) j)

/-- The scaling at an entry `(p, q)`: the entry times the scale row's entry `q`. -/
theorem scale_block (a : Vec Ideal S1024x1024 .f32) (s : Vec Ideal S1x1024 .f32) (p q : Fin 1024) :
    k0_pay3 a s (ix2 p q) = a (ix2 p q) * s (ix2 (0 : Fin 1) q) := by
  unfold k0_pay3
  simp only [shapeCast_self]
  show a (ix2 p q) * broadcastTo S1024x1024 s broadcasts_S1x1024_S1024x1024 (ix2 p q) = _
  rw [broadcastTo_apply s broadcasts_S1x1024_S1024x1024 (ix2 p q) (ix2 (0 : Fin 1) q) (fun a => by
    match a with
    | ⟨0, _⟩ => rfl
    | ⟨1, _⟩ => rfl)]

end Cert.KernelIdeal.Payload

end
-- ==== Proof.LibRowDot.lean ====
/-
  Row products of two matrices, read by natural-number coordinates.

  An entry of a matrix is read at a pair of natural numbers, and is zero outside the matrix; the first `n`
  products of row `r` of `A` with row `s` of `B` are summed over `Finset.range n`.  Read this way a partial
  inner product grows one block of `L` products at a time (`rowDot_block`), starts at zero, and at the full
  width is the inner product of the two rows over `Fin K` (`rowDot_full`).  Addition of extended reals is
  commutative and associative, so no finiteness is needed anywhere here.
-/
import Idealize.ShloMosaic.PureOps.Ideal
import Idealize.ShloMosaic.Lib.ValueIdx

noncomputable section

open Idealize.ShloMosaic Idealize.ShloMosaic.ValueIdx
open scoped BigOperators

namespace Cert.MatSpec

/-- Entry `(r, l)` of an `R × K` matrix, read at natural numbers: zero outside the matrix. -/
def at2 {R K : Nat} (A : (⟨2, ![R, K]⟩ : Shape).Idx → EReal) (r l : Nat) : EReal :=
  if h : r < R ∧ l < K then A (ix2 ⟨r, h.1⟩ ⟨l, h.2⟩) else 0

/-- Inside the matrix the reading is the entry. -/
theorem at2_of_lt {R K : Nat} (A : (⟨2, ![R, K]⟩ : Shape).Idx → EReal) (r l : Nat) (hr : r < R) (hl : l < K) :
    at2 A r l = A (ix2 ⟨r, hr⟩ ⟨l, hl⟩) := by
  unfold at2
  rw [dif_pos ⟨hr, hl⟩]

/-- The sum of the first `n` products of row `r` of `A` with row `s` of `B`. -/
def rowDot {R S K : Nat} (A : (⟨2, ![R, K]⟩ : Shape).Idx → EReal) (B : (⟨2, ![S, K]⟩ : Shape).Idx → EReal)
    (r s n : Nat) : EReal :=
  ∑ l ∈ Finset.range n, at2 A r l * at2 B s l

/-- No product yet: zero. -/
theorem rowDot_zero {R S K : Nat} (A : (⟨2, ![R, K]⟩ : Shape).Idx → EReal) (B : (⟨2, ![S, K]⟩ : Shape).Idx → EReal)
    (r s : Nat) : rowDot A B r s 0 = 0 :=
  Finset.sum_range_zero _

/-- One more block of `L` products: the sum over `b + 1` blocks is the sum over `b` blocks plus the products
    at positions `L * b + kk`, `kk < L`. -/
theorem rowDot_block {R S K : Nat} (A : (⟨2, ![R, K]⟩ : Shape).Idx → EReal) (B : (⟨2, ![S, K]⟩ : Shape).Idx → EReal)
    (r s L b : Nat) :
    rowDot A B r s (L * (b + 1))
      = rowDot A B r s (L * b) + ∑ kk : Fin L, at2 A r (L * b + kk.val) * at2 B s (L * b + kk.val) := by
  unfold rowDot
  rw [show L * (b + 1) = L * b + L from by ring, Finset.sum_range_add,
    Finset.sum_range (fun x => at2 A r (L * b + x) * at2 B s (L * b + x))]

/-- All `K` products of two rows inside the matrices: the inner product of the rows. -/
theorem rowDot_full {R S K : Nat} (A : (⟨2, ![R, K]⟩ : Shape).Idx → EReal) (B : (⟨2, ![S, K]⟩ : Shape).Idx → EReal)
    (r : Fin R) (s : Fin S) :
    rowDot A B r.val s.val K = ∑ k : Fin K, A (ix2 r k) * B (ix2 s k) := by
  unfold rowDot
  rw [Finset.sum_range (fun l => at2 A r.val l * at2 B s.val l)]
  refine Finset.sum_congr rfl fun k _ => ?_
  rw [at2_of_lt A r.val k.val r.isLt k.isLt, at2_of_lt B s.val k.val s.isLt k.isLt]

/-- The partial sums only depend on the entries read: two pairs of matrices, of any sizes, whose readings agree
    along rows `r` and `s` have the same partial sums. -/
theorem rowDot_congr {R S K R' S' K' : Nat} (A : (⟨2, ![R, K]⟩ : Shape).Idx → EReal) (A' : (⟨2, ![R', K']⟩ : Shape).Idx → EReal)
    (B : (⟨2, ![S, K]⟩ : Shape).Idx → EReal) (B' : (⟨2, ![S', K']⟩ : Shape).Idx → EReal)
    (r s n : Nat) (hA : ∀ l, at2 A r l = at2 A' r l) (hB : ∀ l, at2 B s l = at2 B' s l) :
    rowDot A B r s n = rowDot A' B' r s n := by
  unfold rowDot
  exact Finset.sum_congr rfl fun l _ => by rw [hA l, hB l]

end Cert.MatSpec

end
-- ==== Proof.LibScaledDense.lean ====
import Idealize.ShloMosaic.PureOps.Ideal
import Idealize.ShloMosaic.Lib.ValueIdx
import proofs.«142408_j43026982371413_1_alg».proof.Proof.LibDenseRows
import proofs.«142408_j43026982371413_1_alg».proof.Proof.LibRowDot

/-!
# A product with a transposed matrix, accumulated block by block and scaled column by column

`X · Wᵀ` with column `n` multiplied by `S (0, n)` (`scaledDense`): entry `(a, n)` is
`(∑ₖ X (a, k) · W (n, k)) · S (0, n)`.

The sum over `k` may be gathered `L` terms at a time. If an accumulator holds the first `L · b` products of
row `r` of `A` with row `s` of `B`, and a pair of blocks `x0`, `x1` holds the next `L` entries of those two
rows, then the accumulator plus the inner product of the two block rows holds the first `L · (b + 1)`
products (`rowDot_add_block`). Addition of extended reals is commutative and associative, so no entry is
asked to be finite; the scaling multiplies the finished sum, so no distributivity is used either.
-/

noncomputable section

open Idealize.ShloMosaic Idealize.ShloMosaic.ValueIdx
open scoped BigOperators

namespace Cert.ScaledDense

open Cert.DenseRows Cert.MatSpec

/-- One more block of `L` products. `x0` row `p` holds entries `L·b, …, L·b + L - 1` of row `r` of `A`, `x1` row `q`
    the same entries of row `s` of `B`, and `a` is the sum of the first `L·b` products: then `a` plus the inner
    product of the two block rows is the sum of the first `L·(b + 1)` products. -/
theorem rowDot_add_block {R S K Mb Nb L : ℕ} (A : (⟨2, ![R, K]⟩ : Shape).Idx → EReal) (B : (⟨2, ![S, K]⟩ : Shape).Idx → EReal)
    (x0 : (⟨2, ![Mb, L]⟩ : Shape).Idx → EReal) (x1 : (⟨2, ![Nb, L]⟩ : Shape).Idx → EReal)
    (r s b : ℕ) (p : Fin Mb) (q : Fin Nb)
    (h0 : ∀ kk : Fin L, x0 (ix2 p kk) = at2 A r (L * b + kk.val))
    (h1 : ∀ kk : Fin L, x1 (ix2 q kk) = at2 B s (L * b + kk.val))
    (a : EReal) (ha : a = rowDot A B r s (L * b)) :
    a + dense x0 x1 (ix2 p q) = rowDot A B r s (L * (b + 1)) := by
  rw [rowDot_block, ha, dense_apply]
  exact congrArg _ (Finset.sum_congr rfl fun kk _ => by rw [h0 kk, h1 kk])

/-- `X · Wᵀ` with column `n` scaled by `S (0, n)`. -/
def scaledDense {M K N : ℕ} (X : (⟨2, ![M, K]⟩ : Shape).Idx → EReal) (W : (⟨2, ![N, K]⟩ : Shape).Idx → EReal)
    (S : (⟨2, ![1, N]⟩ : Shape).Idx → EReal) : (⟨2, ![M, N]⟩ : Shape).Idx → EReal :=
  fun j => dense X W j * S (ix2 (0 : Fin 1) (j 1))

theorem scaledDense_apply {M K N : ℕ} (X : (⟨2, ![M, K]⟩ : Shape).Idx → EReal) (W : (⟨2, ![N, K]⟩ : Shape).Idx → EReal)
    (S : (⟨2, ![1, N]⟩ : Shape).Idx → EReal) (a : Fin M) (n : Fin N) :
    scaledDense X W S (ix2 a n) = (∑ k : Fin K, X (ix2 a k) * W (ix2 n k)) * S (ix2 (0 : Fin 1) n) := rfl

/-- All `K` products of rows `a` and `n`, scaled, are the entry `(a, n)` of `scaledDense`. -/
theorem rowDot_full_scaled {M K N : ℕ} (X : (⟨2, ![M, K]⟩ : Shape).Idx → EReal) (W : (⟨2, ![N, K]⟩ : Shape).Idx → EReal)
    (S : (⟨2, ![1, N]⟩ : Shape).Idx → EReal) (a : Fin M) (n : Fin N) :
    rowDot X W a.val n.val K * S (ix2 (0 : Fin 1) n) = scaledDense X W S (ix2 a n) := by
  rw [rowDot_full, scaledDense_apply]

end Cert.ScaledDense

end
-- ==== Proof.Blocks.lean ====
import proofs.«142408_j43026982371413_1_alg».proof.Proof.Gen.KernelIdeal.Frame
import proofs.«142408_j43026982371413_1_alg».proof.Proof.Pieces
import proofs.«142408_j43026982371413_1_alg».proof.Proof.Payload
import proofs.«142408_j43026982371413_1_alg».proof.Proof.LibScaledDense

/-!
# The accumulator and the output block, point by point

The grid has 8 × 4 × 8 points; point number `t` has row-block index `t / 32`, column-block index
`t / 8 mod 4` and position `t mod 8` along the contraction axis, which runs fastest. Write `X` (8192 × 4096),
`W` (4096 × 4096) and `S` (1 × 4096) for the three arrays the kernel region reads. At point `t` the
activation block is rows `1024·(t/32) …` and columns `512·(t mod 8) …` of `X`, the weight block rows
`1024·(t/8 mod 4) …` and the same columns of `W`, and the scale block columns `1024·(t/8 mod 4) …` of `S`.

By induction on the point, entry `(p, q)` of the accumulator after point `t` is the sum of the first
`512·(t mod 8 + 1)` products of row `1024·(t/32) + p` of `X` with row `1024·(t/8 mod 4) + q` of `W`
(`acc_inv`). At the last position, `t mod 8 = 7`, that is all 4096 products, and the output block holds
them times `S (0, 1024·(t/8 mod 4) + q)` (`out_block`).
-/

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Pieces Cert.KernelIdeal.Payload
open Cert.DenseRows Cert.MatSpec Cert.ScaledDense

/-! ## What the outputs hold, as the body's terms (any numbers) -/

section AnyNumbers

variable {F : FTy → Type} [FloatOps F]
variable (m : (ℓ : Loc nD τ sig) → Buf (Elt F) ℓ)

/-- At a first position the accumulator ends as the zero block plus the block product. -/
theorem outs_first (c : Dev nD) (t : Fin cfg0.N) (h0 : t.val % 8 = 0) :
    (outsAt0 m c t.val t.isLt).2 = k0_pay2 (iblk m c 0 t) (iblk m c 1 t) k0_pay1 := by
  have h1 : ¬t.val % 8 = 7 := by omega
  rw [outsAt0_A m c t h0 h1]
  dsimp only
  exact acc_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- At a later position it ends as what the point before left plus the block product. -/
theorem outs_next (c : Dev nD) (t : Fin cfg0.N) (h0 : ¬t.val % 8 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 8 = 7
  · rw [outsAt0_C m c t h0 h1]
    dsimp only
    exact acc_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2
  · rw [outsAt0_B m c t h0 h1]
    dsimp only
    exact acc_middle (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2

/-- At a last position the output block is the accumulator the point leaves, scaled. -/
theorem outs_last (c : Dev nD) (t : Fin cfg0.N) (h1 : t.val % 8 = 7) :
    (outsAt0 m c t.val t.isLt).1 = k0_pay3 (outsAt0 m c t.val t.isLt).2 (iblk m c 2 t) := by
  have h0 : ¬t.val % 8 = 0 := by omega
  rw [outsAt0_C m c t h0 h1]
  dsimp only
  rw [acc_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2]
  exact out_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2

end AnyNumbers

/-! ## The blocks, read off the arrays -/

variable (m : (ℓ : Loc nD τ sig) → Buf (Elt Ideal) ℓ)

/-- The three arrays the region reads, as it finds them. -/
abbrev actArr (c : Dev nD) : S8192x4096.Idx → EReal := V m c main_v0
abbrev wgtArr (c : Dev nD) : S4096x4096.Idx → EReal := V m c main_v1
abbrev sclArr (c : Dev nD) : S1x4096.Idx → EReal := V m c main_v2

/-- The block index of each window at point `t`, from the printed index maps, decided over the grid. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

theorem act_block (c : Dev nD) (t : Fin cfg0.N) (p : Fin 1024) (kk : Fin 512) :
    (iblk m c 0 t : Vec Ideal S1024x512 .f32) (ix2 p kk)
      = at2 (actArr m c) (1024 * (t.val / 32) + p.val) (512 * (t.val % 8) + kk.val) := by
  have hN : t.val < 256 := lt_of_lt_of_eq t.isLt N_0
  obtain ⟨e0, e1, -⟩ := idx_facts t
  rw [at2_of_lt _ _ _ (by omega) (by omega)]
  unfold iblk
  rw [View.read_apply]
  show V m c main_v0 _ = V m c main_v0 _
  refine congrArg (V m c main_v0) ?_
  funext a; apply Fin.ext
  match a with
  | ⟨0, _⟩ => show win0_0.index t (0 : Fin 2) * 1024 + 1 * p.val = 1024 * (t.val / 32) + p.val; omega
  | ⟨1, _⟩ => show win0_0.index t (1 : Fin 2) * 512 + 1 * kk.val = 512 * (t.val % 8) + kk.val; omega

theorem wgt_block (c : Dev nD) (t : Fin cfg0.N) (q : Fin 1024) (kk : Fin 512) :
    (iblk m c 1 t : Vec Ideal S1024x512 .bf16) (ix2 q kk)
      = at2 (wgtArr m c) (1024 * (t.val / 8 % 4) + q.val) (512 * (t.val % 8) + kk.val) := by
  have hN : t.val < 256 := lt_of_lt_of_eq t.isLt N_0
  obtain ⟨-, -, e2, e3, -⟩ := idx_facts t
  rw [at2_of_lt _ _ _ (by omega) (by omega)]
  unfold iblk
  rw [View.read_apply]
  show V m c main_v1 _ = V m c main_v1 _
  refine congrArg (V m c main_v1) ?_
  funext a; apply Fin.ext
  match a with
  | ⟨0, _⟩ => show win0_1.index t (0 : Fin 2) * 1024 + 1 * q.val = 1024 * (t.val / 8 % 4) + q.val; omega
  | ⟨1, _⟩ => show win0_1.index t (1 : Fin 2) * 512 + 1 * kk.val = 512 * (t.val % 8) + kk.val; omega

theorem scl_block (c : Dev nD) (t : Fin cfg0.N) (q : Fin 1024) (hq : 1024 * (t.val / 8 % 4) + q.val < 4096) :
    (iblk m c 2 t : Vec Ideal S1x1024 .f32) (ix2 (0 : Fin 1) q)
      = sclArr m c (ix2 (0 : Fin 1) ⟨1024 * (t.val / 8 % 4) + q.val, hq⟩) := by
  obtain ⟨-, -, -, -, e4, e5, -⟩ := idx_facts t
  unfold iblk
  rw [View.read_apply]
  show V m c main_v2 _ = V m c main_v2 _
  refine congrArg (V m c main_v2) ?_
  funext a; apply Fin.ext
  match a with
  | ⟨0, _⟩ => show win0_2.index t (0 : Fin 2) * 1 + 1 * 0 = 0; omega
  | ⟨1, _⟩ => show win0_2.index t (1 : Fin 2) * 1024 + 1 * q.val = 1024 * (t.val / 8 % 4) + q.val; omega

/-! ## The accumulator after each point -/

theorem acc_inv (c : Dev nD) (p q : Fin 1024) : ∀ (n : ℕ) (h : n < cfg0.N),
    (outsAt0 m c n h).2 (ix2 p q)
      = rowDot (actArr m c) (wgtArr m c) (1024 * (n / 32) + p.val) (1024 * (n / 8 % 4) + q.val) (512 * (n % 8 + 1)) := by
  intro n
  induction n with
  | zero =>
    intro h
    refine (congrFun (outs_first m c ⟨0, h⟩ rfl) (ix2 p q)).trans ?_
    refine (add_block (iblk m c 0 ⟨0, h⟩) (iblk m c 1 ⟨0, h⟩) (k0_pay1 (F := Ideal)) (ix2 p q)).trans ?_
    exact rowDot_add_block (actArr m c) (wgtArr m c) (iblk m c 0 ⟨0, h⟩) (iblk m c 1 ⟨0, h⟩)
      (1024 * (0 / 32) + p.val) (1024 * (0 / 8 % 4) + q.val) (0 % 8) p q
      (fun kk => act_block m c ⟨0, h⟩ p kk) (fun kk => wgt_block m c ⟨0, h⟩ q kk) _
      ((zero_block (ix2 p q)).trans (rowDot_zero _ _ _ _).symm)
  | succ n ih =>
    intro h
    have hN : n + 1 < 256 := lt_of_lt_of_eq h N_0
    by_cases h0 : (n + 1) % 8 = 0
    · refine (congrFun (outs_first m c ⟨n + 1, h⟩ h0) (ix2 p q)).trans ?_
      refine (add_block (iblk m c 0 ⟨n + 1, h⟩) (iblk m c 1 ⟨n + 1, h⟩) (k0_pay1 (F := Ideal)) (ix2 p q)).trans ?_
      have e : (n + 1) % 8 + 1 = 0 + 1 := by omega
      rw [e]
      refine rowDot_add_block (actArr m c) (wgtArr m c) (iblk m c 0 ⟨n + 1, h⟩) (iblk m c 1 ⟨n + 1, h⟩)
        (1024 * ((n + 1) / 32) + p.val) (1024 * ((n + 1) / 8 % 4) + q.val) 0 p q
        (fun kk => ?_) (fun kk => ?_) _ ((zero_block (ix2 p q)).trans (rowDot_zero _ _ _ _).symm)
      · have := act_block m c ⟨n + 1, h⟩ p kk
        dsimp only at this
        rw [h0] at this
        exact this
      · have := wgt_block m c ⟨n + 1, h⟩ q kk
        dsimp only at this
        rw [h0] at this
        exact this
    · refine (congrFun (outs_next m c ⟨n + 1, h⟩ h0) (ix2 p q)).trans ?_
      refine (add_block (iblk m c 0 ⟨n + 1, h⟩) (iblk m c 1 ⟨n + 1, h⟩) _ (ix2 p q)).trans ?_
      have e1 : (n + 1) / 32 = n / 32 := by omega
      have e2 : (n + 1) / 8 % 4 = n / 8 % 4 := by omega
      have e3 : (n + 1) % 8 = n % 8 + 1 := by omega
      refine rowDot_add_block (actArr m c) (wgtArr m c) (iblk m c 0 ⟨n + 1, h⟩) (iblk m c 1 ⟨n + 1, h⟩)
        (1024 * ((n + 1) / 32) + p.val) (1024 * ((n + 1) / 8 % 4) + q.val) ((n + 1) % 8) p q
        (fun kk => act_block m c ⟨n + 1, h⟩ p kk) (fun kk => wgt_block m c ⟨n + 1, h⟩ q kk) _ ?_
      rw [e1, e2, e3]
      exact ih (Nat.lt_of_succ_lt h)

/-! ## The output block at a last position -/

theorem out_block (c : Dev nD) (t : Fin cfg0.N) (h7 : t.val % 8 = 7) (p q : Fin 1024)
    (hr : 1024 * (t.val / 32) + p.val < 8192) (hs : 1024 * (t.val / 8 % 4) + q.val < 4096) :
    (outsAt0 m c t.val t.isLt).1 (ix2 p q)
      = scaledDense (actArr m c) (wgtArr m c) (sclArr m c)
          (ix2 ⟨1024 * (t.val / 32) + p.val, hr⟩ ⟨1024 * (t.val / 8 % 4) + q.val, hs⟩) := by
  refine (congrFun (outs_last m c t h7) (ix2 p q)).trans ?_
  refine (scale_block _ (iblk m c 2 t) p q).trans ?_
  rw [acc_inv m c p q t.val t.isLt, scl_block m c t q hs, h7]
  exact rowDot_full_scaled (actArr m c) (wgtArr m c) (sclArr m c) ⟨1024 * (t.val / 32) + p.val, hr⟩ ⟨1024 * (t.val / 8 % 4) + q.val, hs⟩

end Cert.KernelIdeal.Blocks

end
-- ==== Proof.Spec.lean ====
import Idealize.ShloMosaic.PureOps.Ideal
import Idealize.ShloMosaic.Lib.ValueIdx

/-!
# The function both programs compute

For activations `x` of shape 4 × 2048 × 4096, integer weights `w` of shape 4096 × 4096 and scales `s` of length
4096, the result at `(b, r, o)` is

  (∑ₖ x (b, r, k) · w (o, k)) · s (o),

the integer `w (o, k)` read as the real number it is. Over the extended reals a sum may be taken in any order
and grouping, and the scale multiplies the finished sum on both sides, so this one expression serves for a
program that adds the 4096 products 512 at a time and for one that adds them at once.
-/

noncomputable section

open Idealize.ShloMosaic Idealize.ShloMosaic.ValueIdx
open scoped BigOperators

namespace Cert.QuantLinear

/-- The quantized linear layer, entry by entry. -/
def result (x : (⟨3, ![4, 2048, 4096]⟩ : Shape).Idx → EReal) (w : (⟨2, ![4096, 4096]⟩ : Shape).Idx → BitVec 32)
    (s : (⟨1, ![4096]⟩ : Shape).Idx → EReal) : (⟨3, ![4, 2048, 4096]⟩ : Shape).Idx → EReal :=
  fun i => (∑ k : Fin 4096, x (ix3 (i 0) (i 1) k) * (((w (ix2 (i 2) k)).toInt : ℝ) : EReal)) * s (ix1 (i 2))

theorem result_apply (x : (⟨3, ![4, 2048, 4096]⟩ : Shape).Idx → EReal) (w : (⟨2, ![4096, 4096]⟩ : Shape).Idx → BitVec 32)
    (s : (⟨1, ![4096]⟩ : Shape).Idx → EReal) (b : Fin 4) (r : Fin 2048) (o : Fin 4096) :
    result x w s (ix3 b r o)
      = (∑ k : Fin 4096, x (ix3 b r k) * (((w (ix2 o k)).toInt : ℝ) : EReal)) * s (ix1 o) := rfl

end Cert.QuantLinear

end
-- ==== Proof.KernelValue.lean ====
import proofs.«142408_j43026982371413_1_alg».proof.Proof.Blocks
import proofs.«142408_j43026982371413_1_alg».proof.Proof.Spec
import Idealize.ShloMosaic.Lib.Pipeline.Value
import Idealize.ShloMosaic.Lib.StableHlo.Run
import Idealize.ShloMosaic.Lib.ValueIdx

/-!
# The kernel computes the specification

The output blocks written back at the last positions of the contraction axis tile the 8192 × 4096 output
array: entry `(a, n)` lies in the block of row-block `a / 1024` and column-block `n / 1024`, so after the run the
array is `X · Wᵀ` with columns scaled by `S` everywhere (`final`). Around the region the program only
re-lays arrays out: `X` is the activations with their two leading axes merged, `W` the integer weights as
reals, `S` the scale vector as a row, and the result is the output array with its leading axis split again.
Merging and splitting leading axes keeps the row-major position, so entry `(b, r, o)` of the result is
`(∑ₖ x (b, r, k) · w (o, k)) · s (o)`.
-/

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.KernelIdeal.Blocks
open Cert.DenseRows Cert.MatSpec Cert.ScaledDense Cert.QuantLinear

variable (m : (ℓ : Loc nD τ sig) → Buf (Elt Ideal) ℓ) (ρ : Dev nD → PrngReg)

/-- What the region's output array ends holding: `X · Wᵀ`, columns scaled by `S`. -/
abbrev outArr (c : Dev nD) : S8192x4096.Idx → EReal := scaledDense (actArr m c) (wgtArr m c) (sclArr m c)

/-- The output block at a last position, at any index of the block. -/
theorem out_block_at (c : Dev nD) (t : Fin cfg0.N) (h7 : t.val % 8 = 7) (j : S1024x1024.Idx)
    (hr : 1024 * (t.val / 32) + (j 0).val < 8192) (hs : 1024 * (t.val / 8 % 4) + (j 1).val < 4096) :
    (outsAt0 m c t.val t.isLt).1 j
      = outArr m c (ix2 ⟨1024 * (t.val / 32) + (j 0).val, hr⟩ ⟨1024 * (t.val / 8 % 4) + (j 1).val, hs⟩) := by
  obtain ⟨p, q, rfl⟩ : ∃ (p q : Fin 1024), j = ix2 p q := ⟨j 0, j 1, eq_ix2 j⟩
  exact out_block m c t h7 p q hr hs

/-- What a last position writes back is its block of `outArr`. -/
theorem flushed_eq (c : Dev nD) (t : Fin cfg0.N) (hf : (cfg0.win 3).flush t = true) :
    (dats m 0 c).flushed 3 t = ((cfg0.win 3).blk t).view.read (Elt Ideal) (outArr m c) := by
  have h7 : t.val % 8 = 7 := (flush0_3 t).mp hf
  have hN : t.val < 256 := lt_of_lt_of_eq t.isLt N_0
  obtain ⟨-, -, -, -, -, -, e6, e7⟩ := idx_facts t
  show (cfg0.win 3).cut (grid0.coords t) ((dats m 0 c).after 3 t) = _
  rw [after0_3]
  funext j
  have hj0 : (j 0).val < 1024 := (j 0).isLt
  have hj1 : (j 1).val < 1024 := (j 1).isLt
  refine (out_block_at m c t h7 j (by omega) (by omega)).trans ?_
  rw [View.read_apply]
  refine congrArg (outArr m c) ?_
  funext a; apply Fin.ext
  match a with
  | ⟨0, _⟩ => show 1024 * (t.val / 32) + (j 0).val = win0_3.index t (0 : Fin 2) * 1024 + 1 * (j 0).val; omega
  | ⟨1, _⟩ => show 1024 * (t.val / 8 % 4) + (j 1).val = win0_3.index t (1 : Fin 2) * 1024 + 1 * (j 1).val; omega

/-- An index of the output array is in point `t`'s block iff each coordinate is in the block's range. -/
theorem mem_blk (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- The output array after the run. Entry `(a, n)` is written by the last position of row-block `a / 1024` and
    column-block `n / 1024`, point `((a / 1024) · 4 + n / 1024) · 8 + 7`. -/
theorem final (c : Dev nD) : (dats m 0 c).arrAt 3 cfg0.N = outArr m c :=
  (dats m 0 c).arrAt_eq_of_cover 3 (outArr m c) (flushed_eq m c) fun i => by
    have h0 : (i 0).val < 8192 := (i 0).isLt
    have h1 : (i 1).val < 4096 := (i 1).isLt
    have hn : ((i 0).val / 1024 * 4 + (i 1).val / 1024) * 8 + 7 < cfg0.N := by
      rw [show cfg0.N = 256 from N_0]; omega
    obtain ⟨-, -, -, -, -, -, e6, e7⟩ := idx_facts ⟨_, hn⟩
    dsimp only at e6 e7
    refine ⟨⟨_, hn⟩, (flush0_3 _).mpr (by dsimp only; omega), ?_⟩
    rw [mem_blk]
    intro a
    match a with
    | ⟨0, _⟩ =>
      show win0_3.index ⟨_, hn⟩ (0 : Fin 2) * 1024 ≤ (i 0).val ∧ (i 0).val < win0_3.index ⟨_, hn⟩ (0 : Fin 2) * 1024 + 1024
      rw [e6]; omega
    | ⟨1, _⟩ =>
      show win0_3.index ⟨_, hn⟩ (1 : Fin 2) * 1024 ≤ (i 1).val ∧ (i 1).val < win0_3.index ⟨_, hn⟩ (1 : Fin 2) * 1024 + 1024
      rw [e7]; omega

/-! ## Around the region -/

/-- The region finds the activations with their two leading axes merged, -/
theorem act_eq (c : Dev nD) :
    actArr m c = shapeCast S8192x4096 (m ((c : Thread nD τ).loc main_arg0)) shapeCasts_S4x2048x4096_S8192x4096 := by
  show StableHlo.after hostOps0 (fun b => m (c, b)) (Proc.devRef .tc main_v0) = _
  after_results
  rfl

/-- the integer weights as reals, -/
theorem wgt_eq (c : Dev nD) :
    wgtArr m c = sitofp (F := Ideal) .bf16 (m ((c : Thread nD τ).loc main_arg1)) := by
  show StableHlo.after hostOps0 (fun b => m (c, b)) (Proc.devRef .tc main_v1) = _
  after_results

/-- and the scale vector as a row. -/
theorem scl_eq (c : Dev nD) :
    sclArr m c = shapeCast S1x4096 (m ((c : Thread nD τ).loc main_arg2)) shapeCasts_S4096_S1x4096 := by
  show StableHlo.after hostOps0 (fun b => m (c, b)) (Proc.devRef .tc main_v2) = _
  after_results
  rfl

/-- After the region the output array's leading axis is split again. -/
theorem tail_eq (c : Dev nD) :
    Pipeline.afterTail₀ cfgs (dats m) 0 (V0 m) [hostOps1] c main_v4
      = shapeCast S4x2048x4096 (outArr m c) shapeCasts_S8192x4096_S4x2048x4096 := by
  unfold Pipeline.afterTail₀
  show StableHlo.after hostOps1 _ (Proc.devRef .tc main_v4) = _
  after_results
  have e : Pipeline.withArrays spec0 c (V0 m c) (fun w => (dats m 0 c).arrAt w cfg0.N)
      (Proc.devRef .tc (Pipeline.arrRef spec0 3)) = outArr m c :=
    (Pipeline.withArrays_arr spec0 launch0.win.arr_inj c _ _ 3).trans (final m c)
  exact congrArg (fun A : S8192x4096.Idx → EReal =>
    shapeCast S4x2048x4096 A shapeCasts_S8192x4096_S4x2048x4096) e

/-! ## The result, entry by entry -/

/-- Splitting the leading axis of `X · Wᵀ · diag S` gives the specification: the merged row `2048·b + r` of `X`
    is row `(b, r)` of the activations, `W` is the weights as reals, `S (0, o)` is `s (o)`. -/
theorem kernel_eq (c : Dev nD) :
    shapeCast S4x2048x4096 (outArr m c) shapeCasts_S8192x4096_S4x2048x4096
      = result (m ((c : Thread nD τ).loc main_arg0)) (m ((c : Thread nD τ).loc main_arg1))
          (m ((c : Thread nD τ).loc main_arg2)) := by
  funext i
  obtain ⟨b, r, o, rfl⟩ : ∃ (b : Fin 4) (r : Fin 2048) (o : Fin 4096), i = ix3 b r o := ⟨i 0, i 1, i 2, eq_ix3 i⟩
  have hb : b.val < 4 := b.isLt
  have hr : r.val < 2048 := r.isLt
  have hrow : 2048 * b.val + r.val < 8192 := by omega
  rw [shapeCast_apply _ shapeCasts_S8192x4096_S4x2048x4096 (ix3 b r o) (ix2 ⟨2048 * b.val + r.val, hrow⟩ o) (by
      rw [Shape.rowMajor_val_two, Shape.rowMajor_val_three]
      show (2048 * b.val + r.val) * 4096 + o.val = (b.val * 2048 + r.val) * 4096 + o.val
      ring)]
  refine (scaledDense_apply (actArr m c) (wgtArr m c) (sclArr m c) ⟨2048 * b.val + r.val, hrow⟩ o).trans ?_
  rw [result_apply]
  congr 1
  · refine Finset.sum_congr rfl fun k _ => ?_
    refine congrArg₂ (· * ·) ?_ (congrFun (wgt_eq m c) (ix2 o k))
    · rw [act_eq]
      exact shapeCast_apply _ shapeCasts_S4x2048x4096_S8192x4096 (ix2 ⟨2048 * b.val + r.val, hrow⟩ k) (ix3 b r k) (by
        rw [Shape.rowMajor_val_two, Shape.rowMajor_val_three]
        show (b.val * 2048 + r.val) * 4096 + k.val = (2048 * b.val + r.val) * 4096 + k.val
        ring)
  · rw [scl_eq]
    exact shapeCast_apply _ shapeCasts_S4096_S1x4096 (ix2 (0 : Fin 1) o) (ix1 o) (by
      rw [Shape.rowMajor_val_one, Shape.rowMajor_val_two]
      show o.val = 0 * 4096 + o.val
      omega)

/-! ## The run -/

/-- Every fair execution of the kernel program ends with the result array at the specification of the
    arguments as launched, and the arguments unchanged. -/
theorem run : θ_run defs (onTc (τ := τ) (main (F := Ideal))) ⟨m, fun _ => 0, ρ⟩ fun r => ∀ c : Dev nD,
      r.2.mem ((c.tc : Thread nD τ).loc main_v4)
        = result (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(((h c).2 main_v4 (Pipeline.mem_restRefs_of main_v4 (by decide) (by decide))).trans (tail_eq m c)).trans (kernel_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefSide.lean ====
import proofs.«142408_j43026982371413_1_alg».proof.Proof.Gen.ReferenceIdeal.Read
import proofs.«142408_j43026982371413_1_alg».proof.Proof.Spec

/-!
# The reference computes the specification

The reference converts the weights to reals, contracts the last axis of the activations with the last
axis of the weights, spreads the scale vector along the two leading axes and multiplies. Read at an entry
`(b, r, o)` stage by stage this is `(∑ₖ x (b, r, k) · w (o, k)) · s (o)`.
-/

noncomputable section

open Idealize.ShloMosaic Idealize.ShloMosaic.ValueIdx

namespace Cert.ReferenceIdeal.RefValue

open Cert.ReferenceIdeal Cert.ReferenceIdeal.Read Cert.QuantLinear

theorem reference_eq (x0 : (⟨S4x2048x4096, .f32⟩ : BufTy).Contents (Elt Ideal))
    (x1 : (⟨S4096x4096, .i32⟩ : BufTy).Contents (Elt Ideal)) (x2 : (⟨S4096, .f32⟩ : BufTy).Contents (Elt Ideal)) :
    val_main_v4 (F := Ideal) x0 x1 x2 = result x0 x1 x2 := by
  funext i
  obtain ⟨b, r, o, rfl⟩ : ∃ (b : Fin 4) (r : Fin 2048) (o : Fin 4096), i = ix3 b r o := ⟨i 0, i 1, i 2, eq_ix3 i⟩
  rw [val_main_v4_apply, val_main_v1_apply, val_main_v3_apply, val_main_v2_apply, result_apply]
  have el : ∀ k : Fin 4096, lidx_main_v1 (ix3 b r o) k = ix3 b r k := fun k => funext fun a => Fin.ext (by
    match a with
    | ⟨0, _⟩ => rfl
    | ⟨1, _⟩ => rfl
    | ⟨2, _⟩ => rfl)
  have er : ∀ k : Fin 4096, ridx_main_v1 (ix3 b r o) k = ix2 o k := fun k => funext fun a => Fin.ext (by
    match a with
    | ⟨0, _⟩ => rfl
    | ⟨1, _⟩ => rfl)
  have es : idx_main_v2 (idx_main_v3 (ix3 b r o)) = ix1 o := funext fun a => Fin.ext (by
    match a with
    | ⟨0, _⟩ => rfl)
  simp only [el, er, es, val_main_v0_apply]
  rfl

end Cert.ReferenceIdeal.RefValue

end
-- ==== Proof.lean ====
/-
  The certificate of a quantized linear layer: activations `x` (4 × 2048 × 4096), integer weights `w`
  (4096 × 4096, one row per output channel) and one scale `s (o)` per output channel give

    y (b, r, o) = (∑ₖ x (b, r, k) · w (o, k)) · s (o).

  The kernel merges the two leading axes of `x`, tiles the 8192 × 4096 result into 1024 × 1024 blocks and
  walks the contraction axis in eight steps of 512: an accumulator block is cleared at the first step,
  receives the product of a 1024 × 512 activation block with the transpose of a 1024 × 512 weight block at
  every step, and at the eighth step is multiplied column by column by the scales and written out. The
  reference contracts all 4096 products at once and multiplies by the scales spread over the result.

  Over the extended reals both are the expression above. The eight partial sums of 512 products are one
  sum of 4096 products, because addition of extended reals is commutative and associative; the scale
  multiplies the finished sum in both programs, so no distributive law — and hence no finiteness of the
  inputs — is needed. Narrowing the activations to a shorter format and converting the weights to either
  format are exact when numbers are exact.

  The three frame claims are the generated frames (the reference's from its generated run); nothing was
  rewritten when the kernel was idealized, so that claim is trivial; the value claim joins the kernel's
  run, read through its accumulator point by point, with the reference's run read stage by stage.
-/
import proofs.«142408_j43026982371413_1_alg».proof.Defs
import proofs.«142408_j43026982371413_1_alg».proof.Proof.Gen.Kernel
import proofs.«142408_j43026982371413_1_alg».proof.Proof.Gen.Kernel.Frame
import proofs.«142408_j43026982371413_1_alg».proof.Proof.Gen.KernelIdeal
import proofs.«142408_j43026982371413_1_alg».proof.Proof.Gen.KernelIdeal.Frame
import proofs.«142408_j43026982371413_1_alg».proof.Proof.Gen.ReferenceIdeal
import proofs.«142408_j43026982371413_1_alg».proof.Proof.Gen.ReferenceIdeal.Run
import proofs.«142408_j43026982371413_1_alg».proof.Proof.Gen.ReferenceIdeal.Read
import proofs.«142408_j43026982371413_1_alg».proof.Proof.Gen.Pre_finite_inputs
import proofs.«142408_j43026982371413_1_alg».proof.Proof.KernelValue
import proofs.«142408_j43026982371413_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the specification of the same arguments. -/
theorem algebraic : Cert.algebraic_KernelIdeal_ReferenceIdeal := by
  intro m ρ m' ρ' _ hagree
  refine ⟨fun c => Cert.QuantLinear.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
